-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S512x128 : Shape := ⟨2, ![512, 128]⟩
abbrev S1x128 : Shape := ⟨2, ![1, 128]⟩
abbrev S128x256 : Shape := ⟨2, ![128, 256]⟩
abbrev S1x256 : Shape := ⟨2, ![1, 256]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S1x128 : S_.BroadcastsInDim S1x128 (![] : Fin 0 → Fin S1x128.rank)
  reducesTo_S1x128_S_d0_1 : S1x128.ReducesTo [0, 1] S_
  bcast_S_S128x256 : S_.BroadcastsInDim S128x256 (![] : Fin 0 → Fin S128x256.rank)
  reducesTo_S128x256_S_d0_1 : S128x256.ReducesTo [0, 1] S_
  bcast_S_S1x256 : S_.BroadcastsInDim S1x256 (![] : Fin 0 → Fin S1x256.rank)
  reducesTo_S1x256_S_d0_1 : S1x256.ReducesTo [0, 1] S_

variable [Facts]

def fn_part1 {F : FTy → Type} [FloatOps F] (main_arg4 : FVec F S1x256 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S1x256 .f32 := Host.absf main_arg4
  let main_cst_6 : FVec F S_ .f32 := constant S_ .f32 0x7F800000#32
  let main_v20 : FVec F S1x256 .f32 := broadcastInDim S1x256 ![] bcast_S_S1x256 main_cst_6
  let main_v21 : IVec S1x256 1 := cmpf .olt main_v19 main_v20
  let main_c_7 : IVec S_ 1 := constantI S_ 1 1#1
  let main_v22 : IVec S_ 1 := (fun x v => Host.reduce IntOp.andi x v reducesTo_S1x256_S_d0_1 h_S_) main_v21 main_c_7
  let main_v23 : IVec S_ 1 := andi main_v18 main_v22
  main_v23

def fn {F : FTy → Type} [FloatOps F] (main_arg0 : FVec F S16384x512 .f32) (main_arg1 : FVec F S512x128 .f32) (main_arg2 : FVec F S1x128 .f32) (main_arg3 : FVec F S128x256 .f32) (main_arg4 : FVec F S1x256 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S1x128 .f32 := Host.absf main_arg2
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_v13 main_v16
-- ==== Kernel.lean ====
abbrev S16384x512 : Shape := ⟨2, ![16384, 512]⟩
abbrev S512x128 : Shape := ⟨2, ![512, 128]⟩
abbrev S1x128 : Shape := ⟨2, ![1, 128]⟩
abbrev S128x256 : Shape := ⟨2, ![128, 256]⟩
abbrev S1x256 : Shape := ⟨2, ![1, 256]⟩
abbrev S16384x256 : Shape := ⟨2, ![16384, 256]⟩
abbrev S8192x512 : Shape := ⟨2, ![8192, 512]⟩
abbrev S8192x256 : Shape := ⟨2, ![8192, 256]⟩
abbrev S8192x128 : Shape := ⟨2, ![8192, 128]⟩

abbrev nBuf : Space → Nat
  | .hbm => 6
  | .vmem => 8
  | .smem => 0
  | _ => 0

abbrev bufTy : (tb : Table) → Fin (tcTables nBuf tb) → BufTy
  | .hbm, ⟨0, _⟩ => ⟨S16384x512, .f32⟩
  | .hbm, ⟨1, _⟩ => ⟨S512x128, .f32⟩
  | .hbm, ⟨2, _⟩ => ⟨S1x128, .f32⟩
  | .hbm, ⟨3, _⟩ => ⟨S128x256, .f32⟩
  | .hbm, ⟨4, _⟩ => ⟨S1x256, .f32⟩
  | .hbm, ⟨5, _⟩ => ⟨S16384x256, .f32⟩
  | .local _ .vmem, ⟨0, _⟩ => ⟨S8192x512, .f32⟩
  | .local _ .vmem, ⟨1, _⟩ => ⟨S8192x512, .f32⟩
  | .local _ .vmem, ⟨2, _⟩ => ⟨S512x128, .f32⟩
  | .local _ .vmem, ⟨3, _⟩ => ⟨S1x128, .f32⟩
  | .local _ .vmem, ⟨4, _⟩ => ⟨S128x256, .f32⟩
  | .local _ .vmem, ⟨5, _⟩ => ⟨S1x256, .f32⟩
  | .local _ .vmem, ⟨6, _⟩ => ⟨S8192x256, .f32⟩
  | .local _ .vmem, ⟨7, _⟩ => ⟨S8192x256, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8192x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S8192x512_S8192x512_0_0 : ∀ a, (![0, 0] : Fin 2 → Nat) a + S8192x512.size a ≤ S8192x512.size a
  h_S8192x512 : 0 < S8192x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  broadcasts_S1x128_S8192x128 : S1x128.Broadcasts S8192x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  broadcasts_S1x256_S8192x256 : S1x256.Broadcasts S8192x256
  inb_S8192x256_S8192x256_0_0 : ∀ a, (![0, 0] : Fin 2 → Nat) a + S8192x256.size a ≤ S8192x256.size a
  h_S8192x256 : 0 < S8192x256.numel
  dot_S8192x512_S512x128_S8192x128_1_0_0_1_n_n_wf : DotDims.WF S8192x512 S512x128 S8192x128 [1] [0] [0] [1] [] []
  dot_S8192x128_S128x256_S8192x256_1_0_0_1_n_n_wf : DotDims.WF S8192x128 S128x256 S8192x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x512.size a ≤ S16384x512.size a
  hwx0_0 : ∀ i : grid0.Coords, EltTy.bits .f32 = 32 ∨ (Rect.block (s := S16384x512) S8192x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8192x256.size a ≤ S16384x256.size a
  hwx0_5 : ∀ i : grid0.Coords, EltTy.bits .f32 = 32 ∨ (Rect.block (s := S16384x256) S8192x256.size (cc0_transform_5 i) (hinb0_5 i)).WholeWords (EltTy.packing .f32)

variable [Facts₀]

def dot_S8192x512_S512x128_S8192x128_1_0_0_1_n_n : DotDims S8192x512 S512x128 S8192x128 where
  lhsContracting := [1]
  rhsContracting := [0]
  lhsNonContracting := [0]
  rhsNonContracting := [1]
  lhsBatch := []
  rhsBatch := []
  wf := dot_S8192x512_S512x128_S8192x128_1_0_0_1_n_n_wf
def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf

abbrev win0_0 : Pipeline.Window sig grid0 :=
  Pipeline.Window.ofSpec (Memref.whole main_arg0) S8192x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S8192x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x512 : Shape := ⟨2, ![16384, 512]⟩
abbrev S512x128 : Shape := ⟨2, ![512, 128]⟩
abbrev S1x128 : Shape := ⟨2, ![1, 128]⟩
abbrev S128x256 : Shape := ⟨2, ![128, 256]⟩
abbrev S1x256 : Shape := ⟨2, ![1, 256]⟩
abbrev S_ : Shape := ⟨0, ![]⟩
abbrev S656x256 : Shape := ⟨2, ![656, 256]⟩
abbrev S1 : Shape := ⟨1, ![1]⟩
abbrev S2 : Shape := ⟨1, ![2]⟩
abbrev S128 : Shape := ⟨1, ![128]⟩
abbrev S256 : Shape := ⟨1, ![256]⟩
abbrev S16384x256 : Shape := ⟨2, ![16384, 256]⟩
abbrev S2048x512 : Shape := ⟨2, ![2048, 512]⟩
abbrev S2048x256 : Shape := ⟨2, ![2048, 256]⟩
abbrev S2048x128 : Shape := ⟨2, ![2048, 128]⟩

abbrev nBuf : Space → Nat
  | .hbm => 28
  | .vmem => 5
  | .smem => 0
  | _ => 0

abbrev bufTy : (tb : Table) → Fin (tcTables nBuf tb) → BufTy
  | .hbm, ⟨0, _⟩ => ⟨S16384x512, .f32⟩
  | .hbm, ⟨1, _⟩ => ⟨S512x128, .f32⟩
  | .hbm, ⟨2, _⟩ => ⟨S1x128, .f32⟩
  | .hbm, ⟨3, _⟩ => ⟨S128x256, .f32⟩
  | .hbm, ⟨4, _⟩ => ⟨S1x256, .f32⟩
  | .hbm, ⟨5, _⟩ => ⟨S_, .f32⟩
  | .hbm, ⟨6, _⟩ => ⟨S656x256, .f32⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S2, .i32⟩
  | .hbm, ⟨12, _⟩ => ⟨S656x256, .f32⟩
  | .hbm, ⟨13, _⟩ => ⟨S128, .f32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S2, .i32⟩
  | .hbm, ⟨19, _⟩ => ⟨S656x256, .f32⟩
  | .hbm, ⟨20, _⟩ => ⟨S_, .i32⟩
  | .hbm, ⟨21, _⟩ => ⟨S1, .i32⟩
  | .hbm, ⟨22, _⟩ => ⟨S656x256, .f32⟩
  | .hbm, ⟨23, _⟩ => ⟨S256, .f32⟩
  | .hbm, ⟨24, _⟩ => ⟨S_, .i32⟩
  | .hbm, ⟨25, _⟩ => ⟨S1, .i32⟩
  | .hbm, ⟨26, _⟩ => ⟨S656x256, .f32⟩
  | .hbm, ⟨27, _⟩ => ⟨S16384x256, .f32⟩
  | .local _ .vmem, ⟨0, _⟩ => ⟨S2048x512, .f32⟩
  | .local _ .vmem, ⟨1, _⟩ => ⟨S2048x512, .f32⟩
  | .local _ .vmem, ⟨2, _⟩ => ⟨S656x256, .f32⟩
  | .local _ .vmem, ⟨3, _⟩ => ⟨S2048x256, .f32⟩
  | .local _ .vmem, ⟨4, _⟩ => ⟨S2048x256, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_v6 : Ref sig .tc := ⟨.hbm, 15, rfl⟩
abbrev main_call0_c_2 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_c_3 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_c_4 : Ref sig .tc := ⟨.hbm, 24, rfl⟩
abbrev main_call0_v13 : Ref sig .tc := ⟨.hbm, 25, rfl⟩
abbrev main_call0_v14 : Ref sig .tc := ⟨.hbm, 26, rfl⟩
abbrev main_v0 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S656x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S656x256 : S_.BroadcastsInDim S656x256 (![] : Fin 0 → Fin S656x256.rank)
  bcast_S_S1 : S_.BroadcastsInDim S1 (![] : Fin 0 → Fin S1.rank)
  concatenates_S1_S1_S2_d0 : Shape.Concatenates [S1, S1] S2 0
  shapeCasts_S1x128_S128 : S1x128.ShapeCasts S128
  shapeCasts_S1x256_S256 : S1x256.ShapeCasts S256
  inb_S2048x512_S2048x512_0_0 : ∀ a, (![0, 0] : Fin 2 → Nat) a + S2048x512.size a ≤ S2048x512.size a
  h_S2048x512 : 0 < S2048x512.numel
  inb_S656x256_S512x128_0_0 : ∀ a, (![0, 0] : Fin 2 → Nat) a + S512x128.size a ≤ S656x256.size a
  h_S512x128 : 0 < S512x128.numel
  shapeCasts_S512x128_S512x128 : S512x128.ShapeCasts S512x128
  inb_S656x256_S1x128_512_0 : ∀ a, (![512, 0] : Fin 2 → Nat) a + S1x128.size a ≤ S656x256.size a
  h_S1x128 : 0 < S1x128.numel
  shapeCasts_S1x128_S1x128 : S1x128.ShapeCasts S1x128
  inb_S656x256_S128x256_520_0 : ∀ a, (![520, 0] : Fin 2 → Nat) a + S128x256.size a ≤ S656x256.size a
  h_S128x256 : 0 < S128x256.numel
  shapeCasts_S128x256_S128x256 : S128x256.ShapeCasts S128x256
  inb_S656x256_S1x256_648_0 : ∀ a, (![648, 0] : Fin 2 → Nat) a + S1x256.size a ≤ S656x256.size a
  h_S1x256 : 0 < S1x256.numel
  shapeCasts_S1x256_S1x256 : S1x256.ShapeCasts S1x256
  broadcasts_S1x128_S2048x128 : S1x128.Broadcasts S2048x128
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  scatter_S656x256_S2_S512x128_01_n_01_0_wf : ScatterDims.WF S656x256 S2 S512x128 [0, 1] [] [0, 1] 0
  scatter_S656x256_S2_S128_0_0_01_0_wf : ScatterDims.WF S656x256 S2 S128 [0] [0] [0, 1] 0
  scatter_S656x256_S1_S128x256_01_n_0_0_wf : ScatterDims.WF S656x256 S1 S128x256 [0, 1] [] [0] 0
  scatter_S656x256_S1_S256_0_0_0_0_wf : ScatterDims.WF S656x256 S1 S256 [0] [0] [0] 0
  dot_S2048x512_S512x128_S2048x128_1_0_0_1_n_n_wf : DotDims.WF S2048x512 S512x128 S2048x128 [1] [0] [0] [1] [] []
  dot_S2048x128_S128x256_S2048x256_1_0_0_1_n_n_wf : DotDims.WF S2048x128 S128x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S656x256.size a ≤ S656x256.size a
  hwx0_1 : ∀ i : grid0.Coords, EltTy.bits .f32 = 32 ∨ (Rect.block (s := S656x256) S656x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S16384x256.size a
  hwx0_2 : ∀ i : grid0.Coords, EltTy.bits .f32 = 32 ∨ (Rect.block (s := S16384x256) S2048x256.size (cc0_transform_2 i) (hinb0_2 i)).WholeWords (EltTy.packing .f32)

variable [Facts₀]

def scatter_S656x256_S2_S512x128_01_n_01_0 : ScatterDims S656x256 S2 S512x128 where
  updateWindowDims := [0, 1]
  insertedWindowDims := []
  scatterDimsToOperandDims := [0, 1]
  indexVectorDim := 0
  wf := scatter_S656x256_S2_S512x128_01_n_01_0_wf
def scatter_S656x256_S2_S128_0_0_01_0 : ScatterDims S656x256 S2 S128 where
  updateWindowDims := [0]
  insertedWindowDims := [0]
  scatterDimsToOperandDims := [0, 1]
  indexVectorDim := 0
  wf := scatter_S656x256_S2_S128_0_0_01_0_wf
def scatter_S656x256_S1_S128x256_01_n_0_0 : ScatterDims S656x256 S1 S128x256 where
  updateWindowDims := [0, 1]
  insertedWindowDims := []
  scatterDimsToOperandDims := [0]
  indexVectorDim := 0
  wf := scatter_S656x256_S1_S128x256_01_n_0_0_wf
def scatter_S656x256_S1_S256_0_0_0_0 : ScatterDims S656x256 S1 S256 where
  updateWindowDims := [0]
  insertedWindowDims := [0]
  scatterDimsToOperandDims := [0]
  indexVectorDim := 0
  wf := scatter_S656x256_S1_S256_0_0_0_0_wf
def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v14) S656x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== Proof.LibAffine.lean ====
/-
  General lemmas: a dense layer over the extended reals, as one function of its operands read at an index.

  A dense layer takes a matrix `x` of shape [a, k], a weight `w` of shape [k, n] and a bias row `b` of shape [1, n],
  and returns the [a, n] matrix whose entry (p, j) is the sum over q of x (p, q) · w (q, j), plus b (0, j). The layer
  with a second product, on a second matrix `h` and weight `wr`, adds to that the sum over q of h (p, q) · wr (q, j).

  * `affine`, `affine2`: the two layers as functions of their operands, with `affineAt`, `affine2At` their entries;
  * `hostDot_ix2`: the host's plain product [a, k] × [k, n] at (p, j) is that sum of products;
  * `hostAffine_eq`, `hostAffine2_eq`: the host's product, plus the bias row laid along every row (a broadcast along
    both axes), plus for the second layer the second product, is the layer;
  * `coreAffine_eq`, `coreAffine2_eq`: a matrix-unit product into a zero accumulator, plus the bias row broadcast over
    the rows, plus for the second layer a second such product, is the layer;
  * `affineAt_congr`, `affine2At_congr`: the entry (p, j) only reads row p of the matrices, column j of the weights and
    entry j of the bias, so operands that agree there give the same entry (a block of rows of the layer is the layer
    of the block of rows).
  Nothing here mentions a program: the extents are variables and the dimension records are hypotheses.
-/
import Idealize.ShloMosaic.Lib.ValueLayout
import Idealize.ShloMosaic.Lib.ValueIdx
import Idealize.ShloMosaic.Lib.Pipeline.Value
import Idealize.ShloMosaic.PureOps.Ideal.Laws

noncomputable section

namespace Cert.LibAffine

open Idealize.ShloMosaic Idealize.ShloMosaic.ValueIdx

variable {a k n : ℕ}

/-- Entry (p, j) of `x · w + b`: the sum over q of x (p, q) · w (q, j), plus the bias row's entry j. -/
def affineAt (x : FVec Ideal ⟨2, ![a, k]⟩ .f32) (w : FVec Ideal ⟨2, ![k, n]⟩ .f32) (b : FVec Ideal ⟨2, ![1, n]⟩ .f32)
    (p : Fin a) (j : Fin n) : Ideal .f32 :=
  (∑ q : Fin k, x (ix2 p q) * w (ix2 q j)) + b (ix2 (0 : Fin 1) j)

/-- The dense layer `x · w + b` as an [a, n] array. -/
def affine (x : FVec Ideal ⟨2, ![a, k]⟩ .f32) (w : FVec Ideal ⟨2, ![k, n]⟩ .f32) (b : FVec Ideal ⟨2, ![1, n]⟩ .f32) :
    FVec Ideal ⟨2, ![a, n]⟩ .f32 :=
  fun i => affineAt x w b (i 0) (i 1)

theorem affine_ix2 (x : FVec Ideal ⟨2, ![a, k]⟩ .f32) (w : FVec Ideal ⟨2, ![k, n]⟩ .f32) (b : FVec Ideal ⟨2, ![1, n]⟩ .f32)
    (p : Fin a) (j : Fin n) : affine x w b (ix2 p j) = affineAt x w b p j := rfl

/-- Entry (p, j) of `s · wl + b + h · wr`. -/
def affine2At (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : Ideal .f32 :=
  (∑ q : Fin k, s (ix2 p q) * wl (ix2 q j)) + b (ix2 (0 : Fin 1) j) + ∑ q : Fin k, h (ix2 p q) * wr (ix2 q j)

/-- The two-product layer `s · wl + b + h · wr` as an [a, n] array. -/
def affine2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) : FVec Ideal ⟨2, ![a, n]⟩ .f32 :=
  fun i => affine2At s h wl b wr (i 0) (i 1)

theorem affine2_ix2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : affine2 s h wl b wr (ix2 p j) = affine2At s h wl b wr p j := rfl

/-- Entry (p, j) reads only row p of the matrix, column j of the weight and entry j of the bias. -/
theorem affineAt_congr {a' : ℕ} (X : FVec Ideal ⟨2, ![a, k]⟩ .f32) (W : FVec Ideal ⟨2, ![k, n]⟩ .f32) (B : FVec Ideal ⟨2, ![1, n]⟩ .f32)
    (x : FVec Ideal ⟨2, ![a', k]⟩ .f32) (w : FVec Ideal ⟨2, ![k, n]⟩ .f32) (b : FVec Ideal ⟨2, ![1, n]⟩ .f32)
    (p : Fin a') (p' : Fin a) (j : Fin n)
    (hx : ∀ q : Fin k, x (ix2 p q) = X (ix2 p' q)) (hw : ∀ q : Fin k, w (ix2 q j) = W (ix2 q j))
    (hb : b (ix2 (0 : Fin 1) j) = B (ix2 (0 : Fin 1) j)) :
    affineAt x w b p j = affineAt X W B p' j := by
  unfold affineAt
  rw [hb]
  exact congrArg (· + B (ix2 (0 : Fin 1) j)) (Finset.sum_congr rfl fun q _ => by rw [hx q, hw q])

/-- The same for the two-product layer. -/
theorem affine2At_congr {a' : ℕ} (S H : FVec Ideal ⟨2, ![a, k]⟩ .f32) (WL : FVec Ideal ⟨2, ![k, n]⟩ .f32) (B : FVec Ideal ⟨2, ![1, n]⟩ .f32)
    (WR : FVec Ideal ⟨2, ![k, n]⟩ .f32)
    (s h : FVec Ideal ⟨2, ![a', k]⟩ .f32) (wl : FVec Ideal ⟨2, ![k, n]⟩ .f32) (b : FVec Ideal ⟨2, ![1, n]⟩ .f32)
    (wr : FVec Ideal ⟨2, ![k, n]⟩ .f32) (p : Fin a') (p' : Fin a) (j : Fin n)
    (hs : ∀ q : Fin k, s (ix2 p q) = S (ix2 p' q)) (hh : ∀ q : Fin k, h (ix2 p q) = H (ix2 p' q))
    (hwl : ∀ q : Fin k, wl (ix2 q j) = WL (ix2 q j)) (hb : b (ix2 (0 : Fin 1) j) = B (ix2 (0 : Fin 1) j))
    (hwr : ∀ q : Fin k, wr (ix2 q j) = WR (ix2 q j)) :
    affine2At s h wl b wr p j = affine2At S H WL B WR p' j := by
  unfold affine2At
  rw [hb, Finset.sum_congr rfl fun q _ => (by rw [hs q, hwl q] : s (ix2 p q) * wl (ix2 q j) = S (ix2 p' q) * WL (ix2 q j)),
    Finset.sum_congr rfl fun q _ => (by rw [hh q, hwr q] : h (ix2 p q) * wr (ix2 q j) = H (ix2 p' q) * WR (ix2 q j))]

/-- The host's plain product of an [a, k] by a [k, n] array, whose dimension record contracts the left operand's
    columns against the right operand's rows (the four coordinate facts), is at (p, j) the sum over q of
    L (p, q) · R (q, j). -/
theorem hostDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    Host.dotGeneral D prec L R (ix2 p j) = ∑ q : Fin k, L (ix2 p q) * R (ix2 q j) := by
  show FloatOps.dotGeneral D prec .single L R (ix2 p j) = _
  rw [Ideal.dotGeneral_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A matrix-unit product of an [a, k] by a [k, n] array into the zero accumulator, under the same four coordinate
    facts, is at (p, j) the sum over q of L (p, q) · R (q, j). -/
theorem coreDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    FloatOps.matmul D prec L R (constant ⟨2, ![a, n]⟩ .f32 0x00000000#32) (ix2 p j) = ∑ q : Fin k, L (ix2 p q) * R (ix2 q j) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A row [1, n] laid along every row of an [a, n] array by a broadcast along both axes reads, at (p, j), the row's
    entry j. -/
theorem broadcastInDim_1n_an_apply {α : Type} (hd : (⟨2, ![1, n]⟩ : Shape).BroadcastsInDim ⟨2, ![a, n]⟩ ![0, 1])
    (v : (⟨2, ![1, n]⟩ : Shape).Idx → α) (p : Fin a) (j : Fin n) :
    broadcastInDim ⟨2, ![a, n]⟩ ![0, 1] hd v (ix2 p j) = v (ix2 (0 : Fin 1) j) := by
  refine broadcastInDim_apply ![0, 1] hd v (ix2 p j) (ix2 (0 : Fin 1) j) fun ax => ?_
  match ax with
  | ⟨0, _⟩ =>
    show (0 : ℕ) = if (1 : ℕ) = 1 then 0 else p.val
    rw [if_pos rfl]
  | ⟨1, _⟩ =>
    show j.val = if n = 1 then 0 else j.val
    split
    · have := j.isLt; omega
    · rfl

/-- The host's product plus the bias row laid along every row is the dense layer. -/
theorem hostAffine_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (x : FVec Ideal ⟨2, ![a, k]⟩ .f32) (w : FVec Ideal ⟨2, ![k, n]⟩ .f32) (b : FVec Ideal ⟨2, ![1, n]⟩ .f32) :
    addf (Host.dotGeneral D prec x w) (broadcastInDim ⟨2, ![a, n]⟩ ![0, 1] hd b) = affine x w b := by
  funext i
  obtain ⟨p, j, rfl⟩ : ∃ (p : Fin a) (j : Fin n), i = ix2 p j := ⟨i 0, i 1, eq_ix2 i⟩
  rw [addf_apply, hostDot_ix2 D hr hs hl0 hl1 hr0 hr1, broadcastInDim_1n_an_apply, affine_ix2]
  rfl

/-- The host's product plus the bias row plus a second product is the two-product layer. -/
theorem hostAffine2_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) :
    addf (addf (Host.dotGeneral D prec s wl) (broadcastInDim ⟨2, ![a, n]⟩ ![0, 1] hd b)) (Host.dotGeneral D prec h wr)
      = affine2 s h wl b wr := by
  funext i
  obtain ⟨p, j, rfl⟩ : ∃ (p : Fin a) (j : Fin n), i = ix2 p j := ⟨i 0, i 1, eq_ix2 i⟩
  rw [addf_apply, addf_apply, hostDot_ix2 D hr hs hl0 hl1 hr0 hr1, hostDot_ix2 D hr hs hl0 hl1 hr0 hr1,
    broadcastInDim_1n_an_apply, affine2_ix2]
  rfl

/-- A matrix-unit product into the zero accumulator plus the bias row broadcast over the rows is the dense layer. -/
theorem coreAffine_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (x : FVec Ideal ⟨2, ![a, k]⟩ φ) (w : FVec Ideal ⟨2, ![k, n]⟩ φ) (b : FVec Ideal ⟨2, ![1, n]⟩ .f32) :
    addf (FloatOps.matmul D prec x w (constant ⟨2, ![a, n]⟩ .f32 0x00000000#32)) (broadcastTo ⟨2, ![a, n]⟩ b hb)
      = affine (fun i => x i) (fun i => w i) b := by
  funext i
  obtain ⟨p, j, rfl⟩ : ∃ (p : Fin a) (j : Fin n), i = ix2 p j := ⟨i 0, i 1, eq_ix2 i⟩
  rw [addf_apply, coreDot_ix2 D hr hs hl0 hl1 hr0 hr1, broadcastTo_1b_ab_apply, affine_ix2]
  rfl

/-- Two matrix-unit products into zero accumulators, the bias row broadcast over the rows added to the first, is the
    two-product layer. -/
theorem coreAffine2_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (s h : FVec Ideal ⟨2, ![a, k]⟩ φ) (wl wr : FVec Ideal ⟨2, ![k, n]⟩ φ) (b : FVec Ideal ⟨2, ![1, n]⟩ .f32) :
    addf (addf (FloatOps.matmul D prec s wl (constant ⟨2, ![a, n]⟩ .f32 0x00000000#32)) (broadcastTo ⟨2, ![a, n]⟩ b hb))
        (FloatOps.matmul D prec h wr (constant ⟨2, ![a, n]⟩ .f32 0x00000000#32))
      = affine2 (fun i => s i) (fun i => h i) (fun i => wl i) b (fun i => wr i) := by
  funext i
  obtain ⟨p, j, rfl⟩ : ∃ (p : Fin a) (j : Fin n), i = ix2 p j := ⟨i 0, i 1, eq_ix2 i⟩
  rw [addf_apply, addf_apply, coreDot_ix2 D hr hs hl0 hl1 hr0 hr1, coreDot_ix2 D hr hs hl0 hl1 hr0 hr1,
    broadcastTo_1b_ab_apply, affine2_ix2]
  rfl

end Cert.LibAffine

end
-- ==== Proof.LibReluMlp.lean ====
/-
  General lemmas: two dense layers with a rectifier between them, over the extended reals.

  For a matrix `x` of shape [a, k], weights `w1` [k, h], `w2` [h, n] and bias rows `b1` [1, h], `b2` [1, n],
  the network is  max(x · w1 + b1, 0) · w2 + b2 :  entry (p, j) is the sum over r of
  max(∑ q, x (p, q) · w1 (q, r) + b1 (0, r), 0) · w2 (r, j), plus b2 (0, j).

  * `relu`, `mlp`: the rectifier (the maximum with the zero word spread over the array) and the network as
    functions of their operands;
  * `mlp_row`: entry (p, j) reads only row p of `x`, so a block of rows of the network is the network of the block
    of rows;
  * `coreMlp_eq`: two matrix-unit products into zero accumulators, each followed by its bias row broadcast over the
    rows, with the rectifier after the first, are the network — whatever float formats the operands were narrowed
    to on the way, a change of format being the identity on the extended reals.
  Nothing here mentions a program: the extents are variables and the dimension records are hypotheses.
-/
import proofs.«178347_g2000002520895961_pallasbulk_315_20_alg».proof.Proof.LibAffine

noncomputable section

namespace Cert.LibReluMlp

open Idealize.ShloMosaic Idealize.ShloMosaic.ValueIdx Cert.LibAffine

variable {a k h n : ℕ}

/-- The rectifier: the maximum of every entry with the zero word. -/
def relu (y : FVec Ideal ⟨2, ![a, h]⟩ .f32) : FVec Ideal ⟨2, ![a, h]⟩ .f32 :=
  maximumf y (broadcast ⟨2, ![a, h]⟩ (Scalar.ofBits .f32 0x00000000#32))

/-- The rectifier acts entry by entry. -/
theorem relu_congr {a' : ℕ} (y : FVec Ideal ⟨2, ![a, h]⟩ .f32) (y' : FVec Ideal ⟨2, ![a', h]⟩ .f32)
    (i : (⟨2, ![a, h]⟩ : Shape).Idx) (i' : (⟨2, ![a', h]⟩ : Shape).Idx) (e : y i = y' i') :
    relu y i = relu y' i' := by
  unfold relu
  rw [maximumf_apply, maximumf_apply, e]
  rfl

/-- The network max(x · w1 + b1, 0) · w2 + b2 as an [a, n] array. -/
def mlp (x : FVec Ideal ⟨2, ![a, k]⟩ .f32) (w1 : FVec Ideal ⟨2, ![k, h]⟩ .f32) (b1 : FVec Ideal ⟨2, ![1, h]⟩ .f32)
    (w2 : FVec Ideal ⟨2, ![h, n]⟩ .f32) (b2 : FVec Ideal ⟨2, ![1, n]⟩ .f32) : FVec Ideal ⟨2, ![a, n]⟩ .f32 :=
  affine (relu (affine x w1 b1)) w2 b2

/-- Entry (p, j) of the network reads only row p of the input matrix. -/
theorem mlp_row {a' : ℕ} (X : FVec Ideal ⟨2, ![a, k]⟩ .f32) (x : FVec Ideal ⟨2, ![a', k]⟩ .f32)
    (w1 : FVec Ideal ⟨2, ![k, h]⟩ .f32) (b1 : FVec Ideal ⟨2, ![1, h]⟩ .f32)
    (w2 : FVec Ideal ⟨2, ![h, n]⟩ .f32) (b2 : FVec Ideal ⟨2, ![1, n]⟩ .f32)
    (p : Fin a') (p' : Fin a) (j : Fin n) (hx : ∀ q : Fin k, x (ix2 p q) = X (ix2 p' q)) :
    mlp x w1 b1 w2 b2 (ix2 p j) = mlp X w1 b1 w2 b2 (ix2 p' j) := by
  unfold mlp
  rw [affine_ix2, affine_ix2]
  refine affineAt_congr (relu (affine X w1 b1)) w2 b2 (relu (affine x w1 b1)) w2 b2 p p' j (fun r => ?_) (fun _ => rfl) rfl
  refine relu_congr _ _ _ _ ?_
  rw [affine_ix2, affine_ix2]
  exact affineAt_congr X w1 b1 x w1 b1 p p' r hx (fun _ => rfl) rfl

/-- Two matrix-unit products into zero accumulators, each plus its bias row broadcast over the rows, the rectifier
    after the first: the network. The second product's left operand `y` is given entry by entry, so that it may be
    the rectified first layer itself or that array narrowed to another float format. -/
theorem coreMlp_eq {φ ψ : FTy}
    (D₁ : DotDims ⟨2, ![a, k]⟩ ⟨2, ![k, h]⟩ ⟨2, ![a, h]⟩)
    (hr₁ : D₁.contr.rank = 1) (hs₁ : D₁.contr.size ⟨0, by omega⟩ = k)
    (hl0₁ : ∀ i q, (D₁.lhsIdx i q 0).val = (i 0).val) (hl1₁ : ∀ i q, (D₁.lhsIdx i q 1).val = (q ⟨0, by omega⟩).val)
    (hr0₁ : ∀ i q, (D₁.rhsIdx i q 0).val = (q ⟨0, by omega⟩).val) (hr1₁ : ∀ i q, (D₁.rhsIdx i q 1).val = (i 1).val)
    (D₂ : DotDims ⟨2, ![a, h]⟩ ⟨2, ![h, n]⟩ ⟨2, ![a, n]⟩)
    (hr₂ : D₂.contr.rank = 1) (hs₂ : D₂.contr.size ⟨0, by omega⟩ = h)
    (hl0₂ : ∀ i q, (D₂.lhsIdx i q 0).val = (i 0).val) (hl1₂ : ∀ i q, (D₂.lhsIdx i q 1).val = (q ⟨0, by omega⟩).val)
    (hr0₂ : ∀ i q, (D₂.rhsIdx i q 0).val = (q ⟨0, by omega⟩).val) (hr1₂ : ∀ i q, (D₂.rhsIdx i q 1).val = (i 1).val)
    (hb₁ : (⟨2, ![1, h]⟩ : Shape).Broadcasts ⟨2, ![a, h]⟩) (hb₂ : (⟨2, ![1, n]⟩ : Shape).Broadcasts ⟨2, ![a, n]⟩)
    (prec₁ prec₂ : Option ContractPrecision)
    (x : FVec Ideal ⟨2, ![a, k]⟩ φ) (w1 : FVec Ideal ⟨2, ![k, h]⟩ φ) (b1 : FVec Ideal ⟨2, ![1, h]⟩ .f32)
    (y : FVec Ideal ⟨2, ![a, h]⟩ ψ) (w2 : FVec Ideal ⟨2, ![h, n]⟩ ψ) (b2 : FVec Ideal ⟨2, ![1, n]⟩ .f32)
    (hy : ∀ i, y i = relu (addf (FloatOps.matmul D₁ prec₁ x w1 (constant ⟨2, ![a, h]⟩ .f32 0x00000000#32))
      (broadcastTo ⟨2, ![a, h]⟩ b1 hb₁)) i) :
    addf (FloatOps.matmul D₂ prec₂ y w2 (constant ⟨2, ![a, n]⟩ .f32 0x00000000#32)) (broadcastTo ⟨2, ![a, n]⟩ b2 hb₂)
      = mlp (fun i => x i) (fun i => w1 i) b1 (fun i => w2 i) b2 := by
  rw [coreAffine_eq D₂ hr₂ hs₂ hl0₂ hl1₂ hr0₂ hr1₂ hb₂ prec₂ y w2 b2]
  unfold mlp
  refine congrArg (fun z => affine z (fun i => w2 i) b2) (funext fun i => ?_)
  rw [hy i, coreAffine_eq D₁ hr₁ hs₁ hl0₁ hl1₁ hr0₁ hr1₁ hb₁ prec₁ x w1 b1]

end Cert.LibReluMlp

end
-- ==== Proof.KernelValue.lean ====
/-
  The kernel's value. Its body computes max(x · w1 + b1, 0) · w2 + b2 on a block of 8192 rows of x with the
  weights and bias rows staged whole; entry (p, j) of that network reads only row p of x, so what a grid point
  writes back is its block of rows of the network of the whole arrays; the two blocks cover the result, which
  therefore ends holding the network of the argument arrays.
-/
import proofs.«178347_g2000002520895961_pallasbulk_315_20_alg».proof.Proof.Gen.KernelIdeal.Value
import proofs.«178347_g2000002520895961_pallasbulk_315_20_alg».proof.Proof.LibReluMlp
import Idealize.ShloMosaic.Lib.Pipeline.Value
import Idealize.ShloMosaic.Lib.ValueIdx
import Idealize.ShloMosaic.Lib.ValueLayout

noncomputable section

namespace Cert.KernelIdeal.Net

open Cert.KernelIdeal Cert.KernelIdeal.Gen Cert.KernelIdeal.Facts₀
open Idealize.ShloMosaic Idealize.ShloMosaic.ValueIdx Idealize.ShloMosaic.TcCoe Idealize.SL.Sem
open Idealize.ShloMosaic.Pipeline (Dat)
open Cert.LibReluMlp

/-! ## The two products' dimension records, coordinate by coordinate -/

theorem lhs₁_0 (i : S8192x128.Idx) (q : dot_S8192x512_S512x128_S8192x128_1_0_0_1_n_n.contr.Idx) : (dot_S8192x512_S512x128_S8192x128_1_0_0_1_n_n.lhsIdx i q 0).val = (i 0).val := by
  simp [DotDims.lhsIdx, dot_S8192x512_S512x128_S8192x128_1_0_0_1_n_n]; rfl
theorem rhs₁_1 (i : S8192x128.Idx) (q : dot_S8192x512_S512x128_S8192x128_1_0_0_1_n_n.contr.Idx) : (dot_S8192x512_S512x128_S8192x128_1_0_0_1_n_n.rhsIdx i q 1).val = (i 1).val := by
  simp [DotDims.rhsIdx, dot_S8192x512_S512x128_S8192x128_1_0_0_1_n_n]; rfl
theorem lhs₂_0 (i : S8192x256.Idx) (q : dot_S8192x128_S128x256_S8192x256_1_0_0_1_n_n.contr.Idx) : (dot_S8192x128_S128x256_S8192x256_1_0_0_1_n_n.lhsIdx i q 0).val = (i 0).val := by
  simp [DotDims.lhsIdx, dot_S8192x128_S128x256_S8192x256_1_0_0_1_n_n]; rfl
theorem rhs₂_1 (i : S8192x256.Idx) (q : dot_S8192x128_S128x256_S8192x256_1_0_0_1_n_n.contr.Idx) : (dot_S8192x128_S128x256_S8192x256_1_0_0_1_n_n.rhsIdx i q 1).val = (i 1).val := by
  simp [DotDims.rhsIdx, dot_S8192x128_S128x256_S8192x256_1_0_0_1_n_n]; rfl

/-! ## The body's arithmetic is the network of its loaded blocks -/

/-- The body narrows its operands to bf16 before each product, which changes nothing on the extended reals: its
    stored value is max(x · w1 + b1, 0) · w2 + b2 of the blocks it loaded. -/
theorem pay_eq (x0 : Vec Ideal S8192x512 .f32) (x1 : Vec Ideal S512x128 .f32) (x2 : Vec Ideal S1x128 .f32)
    (x3 : Vec Ideal S128x256 .f32) (x4 : Vec Ideal S1x256 .f32) :
    k0_pay1 (F := Ideal) x0 x1 x2 x3 x4 = mlp (a := 8192) (k := 512) (h := 128) (n := 256) x0 x1 x2 x3 x4 := by
  unfold k0_pay1
  exact coreMlp_eq (φ := .bf16) (ψ := .bf16) dot_S8192x512_S512x128_S8192x128_1_0_0_1_n_n rfl rfl lhs₁_0
    (fun i q => DotDims.lhsIdx_val_of_single (d := dot_S8192x512_S512x128_S8192x128_1_0_0_1_n_n) rfl i q)
    (fun i q => DotDims.rhsIdx_val_of_single (d := dot_S8192x512_S512x128_S8192x128_1_0_0_1_n_n) rfl i q) rhs₁_1
    dot_S8192x128_S128x256_S8192x256_1_0_0_1_n_n rfl rfl lhs₂_0
    (fun i q => DotDims.lhsIdx_val_of_single (d := dot_S8192x128_S128x256_S8192x256_1_0_0_1_n_n) rfl i q)
    (fun i q => DotDims.rhsIdx_val_of_single (d := dot_S8192x128_S128x256_S8192x256_1_0_0_1_n_n) rfl i q) rhs₂_1
    Facts₀.broadcasts_S1x128_S8192x128 Facts₀.broadcasts_S1x256_S8192x256 none none _ _ x2 _ _ x4 (fun _ => rfl)

/-! ## What a grid point writes back -/

variable (m : (ℓ : Loc nD τ sig) → Buf (Elt Ideal) ℓ) (ρ : Dev nD → PrngReg)

theorem hz : (![0, 0] : Fin 2 → Nat) = fun _ => 0 := funext fun a => by fin_cases a <;> rfl

/-- The network of the whole argument arrays as the region finds them: what the result array will hold. -/
def resultV (c : Dev nD) : S16384x256.Idx → EReal :=
  mlp (a := 16384) (k := 512) (h := 128) (n := 256) (V m c main_arg0) (V m c main_arg1) (V m c main_arg2) (V m c main_arg3) (V m c main_arg4)

/-- The same over the argument arrays as launched. -/
def result (c : Dev nD) : S16384x256.Idx → EReal :=
  mlp (a := 16384) (k := 512) (h := 128) (n := 256) (m ((c : Thread nD τ).loc main_arg0)) (m ((c : Thread nD τ).loc main_arg1))
    (m ((c : Thread nD τ).loc main_arg2)) (m ((c : Thread nD τ).loc main_arg3)) (m ((c : Thread nD τ).loc main_arg4))

theorem resultV_eq (c : Dev nD) : resultV m c = result m c := by
  unfold resultV result
  rw [V_main_arg0 m c, V_main_arg1 m c, V_main_arg2 m c, V_main_arg3 m c, V_main_arg4 m c]

/-- The index maps over the grid: the input rows move with the output rows, every other block index is zero. -/
theorem idx_facts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 1 ∧ win0_5.index t (1 : Fin 2) = 0 :=
  (by decide +kernel : ∀ t : Fin grid0.N, _)

/-- Every block of rows of the result is some point's. -/
theorem idx_onto : ∀ q0 : Fin 2, ∃ t : Fin cfg0.N, win0_5.index t = ![q0.val, 0] :=
  (by decide +kernel : ∀ q0 : Fin 2, ∃ t : Fin grid0.N, win0_5.index t = ![q0.val, 0])

/-- The weights and bias rows are staged whole: their block at every point is the array. -/
theorem iblk1 (c : Dev nD) (t : Fin cfg0.N) : iblk m c 1 t = V m c main_arg1 := by
  obtain ⟨-, -, e0, e1, -⟩ := idx_facts t
  funext y
  show V m c main_arg1 (((cfg0.win 1).blk t).view.emb y) = V m c main_arg1 y
  refine congrArg _ (funext fun a => Fin.ext ?_)
  match a with
  | ⟨0, _⟩ => show win0_1.index t (0 : Fin 2) * 512 + 1 * (y 0).val = (y 0).val; omega
  | ⟨1, _⟩ => show win0_1.index t (1 : Fin 2) * 128 + 1 * (y 1).val = (y 1).val; omega
theorem iblk2 (c : Dev nD) (t : Fin cfg0.N) : iblk m c 2 t = V m c main_arg2 := by
  obtain ⟨-, -, -, -, e0, e1, -⟩ := idx_facts t
  funext y
  show V m c main_arg2 (((cfg0.win 2).blk t).view.emb y) = V m c main_arg2 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega
theorem iblk3 (c : Dev nD) (t : Fin cfg0.N) : iblk m c 3 t = V m c main_arg3 := by
  obtain ⟨-, -, -, -, -, -, e0, e1, -⟩ := idx_facts t
  funext y
  show V m c main_arg3 (((cfg0.win 3).blk t).view.emb y) = V m c main_arg3 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 256 + 1 * (y 1).val = (y 1).val; omega
theorem iblk4 (c : Dev nD) (t : Fin cfg0.N) : iblk m c 4 t = V m c main_arg4 := by
  obtain ⟨-, -, -, -, -, -, -, -, e0, e1, -⟩ := idx_facts t
  funext y
  show V m c main_arg4 (((cfg0.win 4).blk t).view.emb y) = V m c main_arg4 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 256 + 1 * (y 1).val = (y 1).val; omega

/-- What point `t` writes back is its block of rows of the network of the whole arrays: the network of a block of
    rows is that block of rows of the network. -/
theorem flushed_eq (c : Dev nD) (t : Fin cfg0.N) :
    (dats m 0 c).flushed 5 t = ((cfg0.win 5).blk t).view.read (Elt Ideal) (resultV m c) := by
  rw [Value.flushed5]
  unfold out0_5
  rw [View.canon_unit_zero hz]
  simp only [View.ld_unit_zero (S := S8192x512) hz, View.ld_unit_zero (S := S512x128) hz, View.ld_unit_zero (S := S1x128) hz,
    View.ld_unit_zero (S := S128x256) hz, View.ld_unit_zero (S := S1x256) hz]
  rw [pay_eq, iblk1, iblk2, iblk3, iblk4]
  obtain ⟨e0, e1, -, -, -, -, -, -, -, -, e10, e11⟩ := idx_facts t
  funext y
  obtain ⟨p, j, rfl⟩ : ∃ (p : Fin 8192) (j : Fin 256), y = ix2 p j := ⟨y 0, y 1, eq_ix2 y⟩
  have hp := p.isLt
  have hj := j.isLt
  have hemb : ((cfg0.win 5).blk t).view.emb (ix2 p j)
      = ix2 (⟨win0_5.index t (0 : Fin 2) * 8192 + p.val, by omega⟩ : Fin 16384) j := by
    funext a; apply Fin.ext
    match a with
    | ⟨0, _⟩ => show win0_5.index t (0 : Fin 2) * 8192 + 1 * p.val = win0_5.index t (0 : Fin 2) * 8192 + p.val; omega
    | ⟨1, _⟩ => show win0_5.index t (1 : Fin 2) * 256 + 1 * j.val = j.val; omega
  show mlp (a := 8192) (k := 512) (h := 128) (n := 256) (iblk m c 0 t) (V m c main_arg1) (V m c main_arg2) (V m c main_arg3) (V m c main_arg4) (ix2 p j)
    = resultV m c (((cfg0.win 5).blk t).view.emb (ix2 p j))
  rw [hemb]
  unfold resultV
  refine mlp_row (V m c main_arg0) (iblk m c 0 t) _ _ _ _ p _ j fun q => ?_
  have hq := q.isLt
  show V m c main_arg0 (((cfg0.win 0).blk t).view.emb (ix2 p q)) = V m c main_arg0 (ix2 _ q)
  refine congrArg _ (funext fun a => Fin.ext ?_)
  match a with
  | ⟨0, _⟩ => show win0_0.index t (0 : Fin 2) * 8192 + 1 * p.val = win0_5.index t (0 : Fin 2) * 8192 + p.val; omega
  | ⟨1, _⟩ => show win0_0.index t (1 : Fin 2) * 512 + 1 * q.val = q.val; omega

/-! ## The blocks cover the result -/

theorem mem_blk (t : Fin cfg0.N) (i : S16384x256.Idx) :
    i ∈ ((cfg0.win 5).blk t).view.set ↔ ∀ a : Fin 2, win0_5.index t a * S8192x256.size a ≤ (i a).val
      ∧ (i a).val < win0_5.index t a * S8192x256.size a + S8192x256.size a := by
  show i ∈ ((View.whole main_v0).slice (win0_5.rect t)).set ↔ _
  rw [View.set_slice_whole, Rect.mem_set_unit]
  exact Iff.rfl

/-- Row r of the result lies in the block of the point whose block index is r / 8192. -/
theorem cover (i : S16384x256.Idx) :
    ∃ t : Fin cfg0.N, (cfg0.win 5).flush t = true ∧ i ∈ ((cfg0.win 5).blk t).view.set := by
  have hi0 : (i 0).val < 16384 := (i 0).isLt
  have hi1 : (i 1).val < 256 := (i 1).isLt
  obtain ⟨t, ht⟩ := idx_onto ⟨(i 0).val / 8192, by omega⟩
  have q0 : win0_5.index t (0 : Fin 2) = (i 0).val / 8192 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 8192 ≤ (i 0).val ∧ (i 0).val < win0_5.index t (0 : Fin 2) * 8192 + 8192; omega
  | ⟨1, _⟩ => show win0_5.index t (1 : Fin 2) * 256 ≤ (i 1).val ∧ (i 1).val < win0_5.index t (1 : Fin 2) * 256 + 256; omega

/-- After the run the result array holds the network of the argument arrays. -/
theorem final (c : Dev nD) : (dats m 0 c).arrAt 5 cfg0.N = result m c :=
  ((dats m 0 c).arrAt_eq_of_cover 5 (resultV m c) (fun t _ => flushed_eq m c t) cover).trans (resultV_eq m c)

/-- The run, with the result array named. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Net

end
-- ==== Proof.LibScatterSet.lean ====
/-
  General lemmas: the host's scatter whose body keeps the update (`x.at[...].set(u)`), read at an index.

  The scatter visits the update indices one after the other; an update whose landing index lies inside the operand
  replaces the element there, and one that falls outside is dropped. So the result at an index `i` is

  * the operand's element, when no update lands on `i` (`scatter_set_of_miss`);
  * the value `v`, when some update lands on `i` and every update landing there carries `v` (`scatter_set_of_hit`).

  When every update index `j` lands inside the operand, at `place j`, and `place` is injective (one window written at
  fixed start coordinates), this reads: the result at `place j` is update `j`, and off the image of `place` it is the
  operand (`scatter_set_place`, `scatter_set_off_place`). `resultIdx?_eq_some` gives the landing index from the start
  and window coordinates axis by axis.

  Last, three identities about a chain of such writes: scatters of equal operands are equal (`scatter_congr`), and
  the conversions a called function's operations put between a tensor value's type and the type of the buffer that
  holds it are the identity in both directions (`toBuf_of_rfl`, `ofBuf_of_rfl`).
  Nothing here mentions a program: the shapes and the dimension numbers are variables.
-/
import Idealize.ShloMosaic.PureOps
import Idealize.ShloMosaic.Lib.ValueIdx
import Idealize.ShloMosaic.Lib.StableHlo

noncomputable section

namespace Cert.LibScatterSet

open Idealize.ShloMosaic

variable {α : Type} {s si u : Shape} {w : Nat}

/-- One step of the scatter: update number `n` replaces the element it lands on, or is dropped. -/
def setStep (d : ScatterDims s si u) (idx : IVec si w) (upd : u.Idx → α) (r : s.Idx → α) (n : Fin u.numel) : s.Idx → α :=
  match d.resultIdx? (u.rowMajor.symm n) idx with
  | some i => fun i' => if i' = i then upd (u.rowMajor.symm n) else r i'
  | none => r

/-- The scatter is the fold of that step over the update indices in row-major order. -/
theorem scatter_eq_foldl (d : ScatterDims s si u) (x : s.Idx → α) (idx : IVec si w) (upd : u.Idx → α) :
    Host.scatter d (fun _ b => b) x idx upd = (List.finRange u.numel).foldl (setStep d idx upd) x := rfl

/-- Steps none of which lands on `i` leave the element at `i` alone. -/
theorem foldl_setStep_miss (d : ScatterDims s si u) (idx : IVec si w) (upd : u.Idx → α) (i : s.Idx)
    (L : List (Fin u.numel)) (x : s.Idx → α)
    (h : ∀ n ∈ L, d.resultIdx? (u.rowMajor.symm n) idx ≠ some i) :
    L.foldl (setStep d idx upd) x i = x i := by
  induction L generalizing x with
  | nil => rfl
  | cons n L ih =>
    rw [List.foldl_cons, ih _ fun n' hn' => h n' (List.mem_cons_of_mem _ hn')]
    have hn := h n List.mem_cons_self
    unfold setStep
    cases hres : d.resultIdx? (u.rowMajor.symm n) idx with
    | none => rfl
    | some i0 =>
      have hne : i ≠ i0 := fun e => hn (e ▸ hres)
      exact if_neg hne

/-- Steps one of which lands on `i`, all those that do carrying `v`, leave `v` at `i`. -/
theorem foldl_setStep_hit (d : ScatterDims s si u) (idx : IVec si w) (upd : u.Idx → α) (i : s.Idx) (v : α)
    (hval : ∀ j : u.Idx, d.resultIdx? j idx = some i → upd j = v)
    (L : List (Fin u.numel)) (x : s.Idx → α)
    (hex : ∃ n ∈ L, d.resultIdx? (u.rowMajor.symm n) idx = some i) :
    L.foldl (setStep d idx upd) x i = v := by
  induction L generalizing x with
  | nil => obtain ⟨n, hn, _⟩ := hex; cases hn
  | cons a L ih =>
    rw [List.foldl_cons]
    by_cases hL : ∃ n ∈ L, d.resultIdx? (u.rowMajor.symm n) idx = some i
    · exact ih _ hL
    · have ha : d.resultIdx? (u.rowMajor.symm a) idx = some i := by
        obtain ⟨n, hn, hg⟩ := hex
        rcases List.mem_cons.1 hn with rfl | hn'
        · exact hg
        · exact absurd ⟨n, hn', hg⟩ hL
      rw [foldl_setStep_miss d idx upd i L _ fun n hn hg => hL ⟨n, hn, hg⟩]
      unfold setStep
      rw [ha]
      exact (if_pos rfl).trans (hval _ ha)

/-- No update lands on `i`: the result there is the operand's element. -/
theorem scatter_set_of_miss (d : ScatterDims s si u) (x : s.Idx → α) (idx : IVec si w) (upd : u.Idx → α) (i : s.Idx)
    (h : ∀ j : u.Idx, d.resultIdx? j idx ≠ some i) :
    Host.scatter d (fun _ b => b) x idx upd i = x i := by
  rw [scatter_eq_foldl]
  exact foldl_setStep_miss d idx upd i _ x fun n _ => h _

/-- Some update lands on `i`, and every update landing there carries `v`: the result there is `v`. -/
theorem scatter_set_of_hit (d : ScatterDims s si u) (x : s.Idx → α) (idx : IVec si w) (upd : u.Idx → α) (i : s.Idx) (v : α)
    (hex : ∃ j : u.Idx, d.resultIdx? j idx = some i)
    (hval : ∀ j : u.Idx, d.resultIdx? j idx = some i → upd j = v) :
    Host.scatter d (fun _ b => b) x idx upd i = v := by
  rw [scatter_eq_foldl]
  obtain ⟨j, hj⟩ := hex
  refine foldl_setStep_hit d idx upd i v hval _ x ⟨u.rowMajor j, List.mem_finRange _, ?_⟩
  rw [Equiv.symm_apply_apply]
  exact hj

/-- Every update index `j` lands at `place j`, injectively: the result at `place j` is update `j`. -/
theorem scatter_set_place (d : ScatterDims s si u) (x : s.Idx → α) (idx : IVec si w) (upd : u.Idx → α)
    (place : u.Idx → s.Idx) (hplace : ∀ j, d.resultIdx? j idx = some (place j)) (hinj : Function.Injective place)
    (j : u.Idx) :
    Host.scatter d (fun _ b => b) x idx upd (place j) = upd j :=
  scatter_set_of_hit d x idx upd (place j) (upd j) ⟨j, hplace j⟩ fun j' h => by
    rw [hplace j'] at h
    exact congrArg upd (hinj (Option.some.inj h))

/-- Every update index `j` lands at `place j`: off the image of `place` the result is the operand. -/
theorem scatter_set_off_place (d : ScatterDims s si u) (x : s.Idx → α) (idx : IVec si w) (upd : u.Idx → α)
    (place : u.Idx → s.Idx) (hplace : ∀ j, d.resultIdx? j idx = some (place j))
    (i : s.Idx) (hi : ∀ j, place j ≠ i) :
    Host.scatter d (fun _ b => b) x idx upd i = x i :=
  scatter_set_of_miss d x idx upd i fun j h => hi j (Option.some.inj ((hplace j).symm.trans h))

/-- The landing index from its coordinates: on every operand axis the start plus the window coordinate is the
    coordinate of `p`. -/
theorem resultIdx?_eq_some (d : ScatterDims s si u) (j : u.Idx) (idx : IVec si w) (p : s.Idx)
    (h : ∀ a, d.start j idx a + (d.window j a : Int) = ((p a).val : Int)) :
    d.resultIdx? j idx = some p := by
  unfold ScatterDims.resultIdx?
  rw [dif_pos fun a => by rw [h a]; exact ⟨Int.natCast_nonneg _, by exact_mod_cast (p a).isLt⟩]
  refine congrArg some (funext fun a => Fin.ext ?_)
  show (d.start j idx a + (d.window j a : Int)).toNat = (p a).val
  rw [h a]
  exact Int.toNat_natCast _

/-- Scatters of equal operands are equal. -/
theorem scatter_congr (d : ScatterDims s si u) (f : α → α → α)
    {x x' : s.Idx → α} {idx idx' : IVec si w} {upd upd' : u.Idx → α} (hx : x = x') (hi : idx = idx') (hu : upd = upd') :
    Host.scatter d f x idx upd = Host.scatter d f x' idx' upd' := by
  subst hx hi hu; rfl

/-- Contents at a tensor value's type, converted to the type of the literal buffer that holds it, are unchanged. -/
theorem toBuf_of_rfl {sig : RefSig} {Val : EltTy → Type} (r : Ref sig .tc) (h2 : r.space ≠ .host) (h3 : r.isScoped = false)
    (v : r.ty.Contents Val) : (StableHlo.TRef.of (T := r.ty) r rfl h2 h3).toBuf v = v := rfl

/-- And converted back. -/
theorem ofBuf_of_rfl {sig : RefSig} {Val : EltTy → Type} (r : Ref sig .tc) (h2 : r.space ≠ .host) (h3 : r.isScoped = false)
    (v : r.ty.Contents Val) : (StableHlo.TRef.of (T := r.ty) r rfl h2 h3).ofBuf v = v := rfl

end Cert.LibScatterSet

end
-- ==== Proof.RefSlab.lean ====
/-
  The reference's packed parameter array. Before its kernel runs, the reference writes the four parameter arrays
  into one [656, 256] array of zeros, each at fixed start coordinates: w1 at rows 0 … 511 and columns 0 … 127, the
  row b1 at row 512, w2 at rows 520 … 647 and b2 at row 648. Each write is a scatter of one window that keeps the
  update, so it lands update index j at a fixed offset from j, injectively, and leaves every other entry alone.
  Here: where each of the four writes lands, and the packed array read on the four regions the kernel loads —
  there it holds w1, b1, w2 and b2 again (a later write never touches an earlier region).
-/
import proofs.«178347_g2000002520895961_pallasbulk_315_20_alg».proof.Proof.Gen.ReferenceIdeal.Frame
import proofs.«178347_g2000002520895961_pallasbulk_315_20_alg».proof.Proof.LibScatterSet
import Idealize.ShloMosaic.Lib.StableHlo.Run
import Idealize.ShloMosaic.Lib.Pipeline.Value
import Idealize.ShloMosaic.Lib.ValueIdx

noncomputable section

namespace Cert.ReferenceIdeal.Slab

open Cert.ReferenceIdeal Cert.ReferenceIdeal.Gen Cert.ReferenceIdeal.Facts₀
open Idealize.ShloMosaic Idealize.ShloMosaic.ValueIdx Idealize.ShloMosaic.TcCoe Idealize.SL.Sem
open Cert.LibScatterSet

/-- A start index of two components (row, column), as the program builds it: two one-element vectors joined. -/
def idx2 (r c : BitVec 32) : IVec S2 32 :=
  concatenate S2 0 [⟨S1, broadcastInDim S1 ![] Facts₀.bcast_S_S1 (constantI S_ 32 r)⟩,
    ⟨S1, broadcastInDim S1 ![] Facts₀.bcast_S_S1 (constantI S_ 32 c)⟩] Facts₀.concatenates_S1_S1_S2_d0
/-- A start index of one component (the row). -/
def idx1 (r : BitVec 32) : IVec S1 32 := broadcastInDim S1 ![] Facts₀.bcast_S_S1 (constantI S_ 32 r)

/-- The packed array as a function of the four parameter arrays. -/
def slab (w1 : S512x128.Idx → EReal) (b1 : S1x128.Idx → EReal) (w2 : S128x256.Idx → EReal) (b2 : S1x256.Idx → EReal) :
    S656x256.Idx → EReal :=
  Host.scatter scatter_S656x256_S1_S256_0_0_0_0 (fun _ b => b)
    (Host.scatter scatter_S656x256_S1_S128x256_01_n_0_0 (fun _ b => b)
      (Host.scatter scatter_S656x256_S2_S128_0_0_01_0 (fun _ b => b)
        (Host.scatter scatter_S656x256_S2_S512x128_01_n_01_0 (fun _ b => b)
          (broadcastInDim S656x256 ![] Facts₀.bcast_S_S656x256 (constant (F := Ideal) S_ .f32 0x00000000#32))
          (idx2 0#32 0#32) w1)
        (idx2 512#32 0#32) (shapeCast S128 b1 Facts₀.shapeCasts_S1x128_S128))
      (idx1 520#32) w2)
    (idx1 648#32) (shapeCast S256 b2 Facts₀.shapeCasts_S1x256_S256)

set_option maxHeartbeats 400000 in
/-- The region finds the packed array built from the argument arrays as launched: the host operations before it are
    the four writes, each buffer conversion between them the identity, their operands the zeros, the start indices,
    the bias rows reshaped to vectors, and the arguments. -/
theorem V_slab (m : (ℓ : Loc nD τ sig) → Buf (Elt Ideal) ℓ) (c : Dev nD) :
    (V (F := Ideal) m c main_call0_v14 : S656x256.Idx → EReal)
      = slab (m ((c : Thread nD τ).loc main_arg1)) (m ((c : Thread nD τ).loc main_arg2))
          (m ((c : Thread nD τ).loc main_arg3)) (m ((c : Thread nD τ).loc main_arg4)) := by
  dsimp only [Gen.V, Gen.hostOps0]
  after_results
  unfold slab
  refine (toBuf_of_rfl _ _ _ _).trans ?_
  refine scatter_congr _ _ ?_ ?_ ?_
  · refine (ofBuf_of_rfl _ _ _ _).trans ?_
    refine (toBuf_of_rfl _ _ _ _).trans ?_
    refine scatter_congr _ _ ?_ ?_ ?_
    · refine (ofBuf_of_rfl _ _ _ _).trans ?_
      refine (toBuf_of_rfl _ _ _ _).trans ?_
      refine scatter_congr _ _ ?_ ?_ ?_
      · refine (ofBuf_of_rfl _ _ _ _).trans ?_
        refine (toBuf_of_rfl _ _ _ _).trans ?_
        refine scatter_congr _ _ ?_ ?_ ?_
        · rfl
        · rfl
        · rfl
      · rfl
      · rfl
    · rfl
    · rfl
  · rfl
  · rfl

/-! ## Where each write lands -/

/-- w1's entry (q, r) lands at (q, r). -/
def place1 (j : S512x128.Idx) : S656x256.Idx :=
  ix2 (⟨(j 0).val, by have : (j 0).val < 512 := (j 0).isLt; omega⟩ : Fin 656) (⟨(j 1).val, by have : (j 1).val < 128 := (j 1).isLt; omega⟩ : Fin 256)
/-- b1's entry r lands at (512, r). -/
def place2 (j : S128.Idx) : S656x256.Idx :=
  ix2 (⟨512, by omega⟩ : Fin 656) (⟨(j 0).val, by have : (j 0).val < 128 := (j 0).isLt; omega⟩ : Fin 256)
/-- w2's entry (r, k) lands at (520 + r, k). -/
def place3 (j : S128x256.Idx) : S656x256.Idx :=
  ix2 (⟨520 + (j 0).val, by have : (j 0).val < 128 := (j 0).isLt; omega⟩ : Fin 656) (⟨(j 1).val, (j 1).isLt⟩ : Fin 256)
/-- b2's entry k lands at (648, k). -/
def place4 (j : S256.Idx) : S656x256.Idx :=
  ix2 (⟨648, by omega⟩ : Fin 656) (⟨(j 0).val, (j 0).isLt⟩ : Fin 256)

theorem hplace1 (j : S512x128.Idx) : scatter_S656x256_S2_S512x128_01_n_01_0.resultIdx? j (idx2 0#32 0#32) = some (place1 j) :=
  resultIdx?_eq_some _ j _ _ fun a => by
    match a with
    | ⟨0, _⟩ =>
      have hs : scatter_S656x256_S2_S512x128_01_n_01_0.start j (idx2 0#32 0#32) (0 : Fin 2) = 0 := rfl
      have hw : scatter_S656x256_S2_S512x128_01_n_01_0.window j (0 : Fin 2) = (j 0).val := rfl
      show scatter_S656x256_S2_S512x128_01_n_01_0.start j (idx2 0#32 0#32) (0 : Fin 2) + ((scatter_S656x256_S2_S512x128_01_n_01_0.window j (0 : Fin 2) : ℕ) : Int) = (((j 0).val : ℕ) : Int)
      rw [hs, hw]; exact Int.zero_add _
    | ⟨1, _⟩ =>
      have hs : scatter_S656x256_S2_S512x128_01_n_01_0.start j (idx2 0#32 0#32) (1 : Fin 2) = 0 := rfl
      have hw : scatter_S656x256_S2_S512x128_01_n_01_0.window j (1 : Fin 2) = (j 1).val := rfl
      show scatter_S656x256_S2_S512x128_01_n_01_0.start j (idx2 0#32 0#32) (1 : Fin 2) + ((scatter_S656x256_S2_S512x128_01_n_01_0.window j (1 : Fin 2) : ℕ) : Int) = (((j 1).val : ℕ) : Int)
      rw [hs, hw]; exact Int.zero_add _

theorem hplace2 (j : S128.Idx) : scatter_S656x256_S2_S128_0_0_01_0.resultIdx? j (idx2 512#32 0#32) = some (place2 j) :=
  resultIdx?_eq_some _ j _ _ fun a => by
    match a with
    | ⟨0, _⟩ =>
      have hs : scatter_S656x256_S2_S128_0_0_01_0.start j (idx2 512#32 0#32) (0 : Fin 2) = 512 := rfl
      have hw : scatter_S656x256_S2_S128_0_0_01_0.window j (0 : Fin 2) = 0 := rfl
      show scatter_S656x256_S2_S128_0_0_01_0.start j (idx2 512#32 0#32) (0 : Fin 2) + ((scatter_S656x256_S2_S128_0_0_01_0.window j (0 : Fin 2) : ℕ) : Int) = ((512 : ℕ) : Int)
      rw [hs, hw]; rfl
    | ⟨1, _⟩ =>
      have hs : scatter_S656x256_S2_S128_0_0_01_0.start j (idx2 512#32 0#32) (1 : Fin 2) = 0 := rfl
      have hw : scatter_S656x256_S2_S128_0_0_01_0.window j (1 : Fin 2) = (j 0).val := rfl
      show scatter_S656x256_S2_S128_0_0_01_0.start j (idx2 512#32 0#32) (1 : Fin 2) + ((scatter_S656x256_S2_S128_0_0_01_0.window j (1 : Fin 2) : ℕ) : Int) = (((j 0).val : ℕ) : Int)
      rw [hs, hw]; exact Int.zero_add _

theorem hplace3 (j : S128x256.Idx) : scatter_S656x256_S1_S128x256_01_n_0_0.resultIdx? j (idx1 520#32) = some (place3 j) :=
  resultIdx?_eq_some _ j _ _ fun a => by
    match a with
    | ⟨0, _⟩ =>
      have hs : scatter_S656x256_S1_S128x256_01_n_0_0.start j (idx1 520#32) (0 : Fin 2) = 520 := rfl
      have hw : scatter_S656x256_S1_S128x256_01_n_0_0.window j (0 : Fin 2) = (j 0).val := rfl
      show scatter_S656x256_S1_S128x256_01_n_0_0.start j (idx1 520#32) (0 : Fin 2) + ((scatter_S656x256_S1_S128x256_01_n_0_0.window j (0 : Fin 2) : ℕ) : Int) = ((520 + (j 0).val : ℕ) : Int)
      rw [hs, hw]; exact (Int.natCast_add 520 (j 0).val).symm
    | ⟨1, _⟩ =>
      have hs : scatter_S656x256_S1_S128x256_01_n_0_0.start j (idx1 520#32) (1 : Fin 2) = 0 := rfl
      have hw : scatter_S656x256_S1_S128x256_01_n_0_0.window j (1 : Fin 2) = (j 1).val := rfl
      show scatter_S656x256_S1_S128x256_01_n_0_0.start j (idx1 520#32) (1 : Fin 2) + ((scatter_S656x256_S1_S128x256_01_n_0_0.window j (1 : Fin 2) : ℕ) : Int) = (((j 1).val : ℕ) : Int)
      rw [hs, hw]; exact Int.zero_add _

theorem hplace4 (j : S256.Idx) : scatter_S656x256_S1_S256_0_0_0_0.resultIdx? j (idx1 648#32) = some (place4 j) :=
  resultIdx?_eq_some _ j _ _ fun a => by
    match a with
    | ⟨0, _⟩ =>
      have hs : scatter_S656x256_S1_S256_0_0_0_0.start j (idx1 648#32) (0 : Fin 2) = 648 := rfl
      have hw : scatter_S656x256_S1_S256_0_0_0_0.window j (0 : Fin 2) = 0 := rfl
      show scatter_S656x256_S1_S256_0_0_0_0.start j (idx1 648#32) (0 : Fin 2) + ((scatter_S656x256_S1_S256_0_0_0_0.window j (0 : Fin 2) : ℕ) : Int) = ((648 : ℕ) : Int)
      rw [hs, hw]; rfl
    | ⟨1, _⟩ =>
      have hs : scatter_S656x256_S1_S256_0_0_0_0.start j (idx1 648#32) (1 : Fin 2) = 0 := rfl
      have hw : scatter_S656x256_S1_S256_0_0_0_0.window j (1 : Fin 2) = (j 0).val := rfl
      show scatter_S656x256_S1_S256_0_0_0_0.start j (idx1 648#32) (1 : Fin 2) + ((scatter_S656x256_S1_S256_0_0_0_0.window j (1 : Fin 2) : ℕ) : Int) = (((j 0).val : ℕ) : Int)
      rw [hs, hw]; exact Int.zero_add _

theorem place1_inj : Function.Injective place1 := fun j j' e => by
  funext a; apply Fin.ext
  match a with
  | ⟨0, _⟩ => exact congrArg (fun i : S656x256.Idx => (i 0).val) e
  | ⟨1, _⟩ => exact congrArg (fun i : S656x256.Idx => (i 1).val) e
theorem place2_inj : Function.Injective place2 := fun j j' e => by
  funext a; apply Fin.ext
  match a with
  | ⟨0, _⟩ => exact congrArg (fun i : S656x256.Idx => (i 1).val) e
theorem place3_inj : Function.Injective place3 := fun j j' e => by
  funext a; apply Fin.ext
  match a with
  | ⟨0, _⟩ =>
    have h : 520 + (j 0).val = 520 + (j' 0).val := congrArg (fun i : S656x256.Idx => (i 0).val) e
    show (j 0).val = (j' 0).val
    omega
  | ⟨1, _⟩ => exact congrArg (fun i : S656x256.Idx => (i 1).val) e
theorem place4_inj : Function.Injective place4 := fun j j' e => by
  funext a; apply Fin.ext
  match a with
  | ⟨0, _⟩ => exact congrArg (fun i : S656x256.Idx => (i 1).val) e

/-! ## The packed array on the four regions the kernel loads -/

variable (w1 : S512x128.Idx → EReal) (b1 : S1x128.Idx → EReal) (w2 : S128x256.Idx → EReal) (b2 : S1x256.Idx → EReal)

/-- Rows 0 … 511, columns 0 … 127: w1 (rows 512, 520 … 647 and 648 are the later writes'). -/
theorem slab_w1 (q : Fin 512) (r : Fin 128) :
    slab w1 b1 w2 b2 (ix2 (⟨q.val, by omega⟩ : Fin 656) (⟨r.val, by omega⟩ : Fin 256)) = w1 (ix2 q r) := by
  have hq := q.isLt
  unfold slab
  refine (scatter_set_off_place scatter_S656x256_S1_S256_0_0_0_0 _ _ _ place4 hplace4 _ fun j e => ?_).trans ?_
  · have h : (648 : ℕ) = q.val := congrArg (fun i : S656x256.Idx => (i 0).val) e
    omega
  refine (scatter_set_off_place scatter_S656x256_S1_S128x256_01_n_0_0 _ _ _ place3 hplace3 _ fun j e => ?_).trans ?_
  · have h : 520 + (j 0).val = q.val := congrArg (fun i : S656x256.Idx => (i 0).val) e
    omega
  refine (scatter_set_off_place scatter_S656x256_S2_S128_0_0_01_0 _ _ _ place2 hplace2 _ fun j e => ?_).trans ?_
  · have h : (512 : ℕ) = q.val := congrArg (fun i : S656x256.Idx => (i 0).val) e
    omega
  exact scatter_set_place scatter_S656x256_S2_S512x128_01_n_01_0 _ _ w1 place1 hplace1 place1_inj (ix2 q r)

/-- Row 512, columns 0 … 127: the row b1. -/
theorem slab_b1 (r : Fin 128) :
    slab w1 b1 w2 b2 (ix2 (⟨512, by omega⟩ : Fin 656) (⟨r.val, by omega⟩ : Fin 256)) = b1 (ix2 (0 : Fin 1) r) := by
  unfold slab
  refine (scatter_set_off_place scatter_S656x256_S1_S256_0_0_0_0 _ _ _ place4 hplace4 _ fun j e => ?_).trans ?_
  · have h : (648 : ℕ) = 512 := congrArg (fun i : S656x256.Idx => (i 0).val) e
    omega
  refine (scatter_set_off_place scatter_S656x256_S1_S128x256_01_n_0_0 _ _ _ place3 hplace3 _ fun j e => ?_).trans ?_
  · have h : 520 + (j 0).val = 512 := congrArg (fun i : S656x256.Idx => (i 0).val) e
    omega
  refine (scatter_set_place scatter_S656x256_S2_S128_0_0_01_0 _ _ _ place2 hplace2 place2_inj (ix1 r)).trans ?_
  refine shapeCast_apply b1 _ (ix1 r) (ix2 (0 : Fin 1) r) ?_
  rw [Shape.rowMajor_val_two, Shape.rowMajor_val_one]
  show 0 * 128 + r.val = r.val
  omega

/-- Rows 520 … 647: w2. -/
theorem slab_w2 (r : Fin 128) (k : Fin 256) :
    slab w1 b1 w2 b2 (ix2 (⟨520 + r.val, by omega⟩ : Fin 656) k) = w2 (ix2 r k) := by
  have hr := r.isLt
  unfold slab
  refine (scatter_set_off_place scatter_S656x256_S1_S256_0_0_0_0 _ _ _ place4 hplace4 _ fun j e => ?_).trans ?_
  · have h : (648 : ℕ) = 520 + r.val := congrArg (fun i : S656x256.Idx => (i 0).val) e
    omega
  exact scatter_set_place scatter_S656x256_S1_S128x256_01_n_0_0 _ _ w2 place3 hplace3 place3_inj (ix2 r k)

/-- Row 648: the row b2. -/
theorem slab_b2 (k : Fin 256) :
    slab w1 b1 w2 b2 (ix2 (⟨648, by omega⟩ : Fin 656) k) = b2 (ix2 (0 : Fin 1) k) := by
  unfold slab
  refine (scatter_set_place scatter_S656x256_S1_S256_0_0_0_0 _ _ _ place4 hplace4 place4_inj (ix1 k)).trans ?_
  refine shapeCast_apply b2 _ (ix1 k) (ix2 (0 : Fin 1) k) ?_
  rw [Shape.rowMajor_val_two, Shape.rowMajor_val_one]
  show 0 * 256 + k.val = k.val
  omega

end Cert.ReferenceIdeal.Slab

end
-- ==== Proof.RefValue.lean ====
/-
  The reference's value. Its kernel computes max(x · w1 + b1, 0) · w2 + b2 on a block of 2048 rows of x, loading
  w1, b1, w2 and b2 from four regions of one packed array staged whole; on those regions the packed array holds the
  four parameter arrays (the packed-array module), so what a grid point writes back is its block of rows of the
  network of the argument arrays; the eight blocks cover the result, which therefore ends holding that network.
-/
import proofs.«178347_g2000002520895961_pallasbulk_315_20_alg».proof.Proof.Gen.ReferenceIdeal.Value
import proofs.«178347_g2000002520895961_pallasbulk_315_20_alg».proof.Proof.LibReluMlp
import proofs.«178347_g2000002520895961_pallasbulk_315_20_alg».proof.Proof.RefSlab
import Idealize.ShloMosaic.Lib.Pipeline.Value
import Idealize.ShloMosaic.Lib.ValueIdx
import Idealize.ShloMosaic.Lib.ValueLayout

noncomputable section

namespace Cert.ReferenceIdeal.Net

open Cert.ReferenceIdeal Cert.ReferenceIdeal.Gen Cert.ReferenceIdeal.Facts₀
open Idealize.ShloMosaic Idealize.ShloMosaic.ValueIdx Idealize.ShloMosaic.TcCoe Idealize.SL.Sem
open Idealize.ShloMosaic.Pipeline (Dat)
open Cert.LibReluMlp
open Cert.ReferenceIdeal.Slab

/-! ## The two products' dimension records, coordinate by coordinate -/

theorem lhs₁_0 (i : S2048x128.Idx) (q : dot_S2048x512_S512x128_S2048x128_1_0_0_1_n_n.contr.Idx) : (dot_S2048x512_S512x128_S2048x128_1_0_0_1_n_n.lhsIdx i q 0).val = (i 0).val := by
  simp [DotDims.lhsIdx, dot_S2048x512_S512x128_S2048x128_1_0_0_1_n_n]; rfl
theorem rhs₁_1 (i : S2048x128.Idx) (q : dot_S2048x512_S512x128_S2048x128_1_0_0_1_n_n.contr.Idx) : (dot_S2048x512_S512x128_S2048x128_1_0_0_1_n_n.rhsIdx i q 1).val = (i 1).val := by
  simp [DotDims.rhsIdx, dot_S2048x512_S512x128_S2048x128_1_0_0_1_n_n]; rfl
theorem lhs₂_0 (i : S2048x256.Idx) (q : dot_S2048x128_S128x256_S2048x256_1_0_0_1_n_n.contr.Idx) : (dot_S2048x128_S128x256_S2048x256_1_0_0_1_n_n.lhsIdx i q 0).val = (i 0).val := by
  simp [DotDims.lhsIdx, dot_S2048x128_S128x256_S2048x256_1_0_0_1_n_n]; rfl
theorem rhs₂_1 (i : S2048x256.Idx) (q : dot_S2048x128_S128x256_S2048x256_1_0_0_1_n_n.contr.Idx) : (dot_S2048x128_S128x256_S2048x256_1_0_0_1_n_n.rhsIdx i q 1).val = (i 1).val := by
  simp [DotDims.rhsIdx, dot_S2048x128_S128x256_S2048x256_1_0_0_1_n_n]; rfl

/-! ## The body's arithmetic is the network of its loaded blocks -/

/-- The body's stored value is max(x · w1 + b1, 0) · w2 + b2 of the blocks it loaded (its shape casts are between
    equal shapes). -/
theorem pay_eq (x0 : Vec Ideal S2048x512 .f32) (x1 : Vec Ideal S512x128 .f32) (x2 : Vec Ideal S1x128 .f32)
    (x3 : Vec Ideal S128x256 .f32) (x4 : Vec Ideal S1x256 .f32) :
    k0_pay1 (F := Ideal) x0 x1 x2 x3 x4 = mlp (a := 2048) (k := 512) (h := 128) (n := 256) x0 x1 x2 x3 x4 := by
  unfold k0_pay1
  simp only [shapeCast_self]
  exact coreMlp_eq (φ := .f32) (ψ := .f32) dot_S2048x512_S512x128_S2048x128_1_0_0_1_n_n rfl rfl lhs₁_0
    (fun i q => DotDims.lhsIdx_val_of_single (d := dot_S2048x512_S512x128_S2048x128_1_0_0_1_n_n) rfl i q)
    (fun i q => DotDims.rhsIdx_val_of_single (d := dot_S2048x512_S512x128_S2048x128_1_0_0_1_n_n) rfl i q) rhs₁_1
    dot_S2048x128_S128x256_S2048x256_1_0_0_1_n_n rfl rfl lhs₂_0
    (fun i q => DotDims.lhsIdx_val_of_single (d := dot_S2048x128_S128x256_S2048x256_1_0_0_1_n_n) rfl i q)
    (fun i q => DotDims.rhsIdx_val_of_single (d := dot_S2048x128_S128x256_S2048x256_1_0_0_1_n_n) rfl i q) rhs₂_1
    Facts₀.broadcasts_S1x128_S2048x128 Facts₀.broadcasts_S1x256_S2048x256 none none x0 x1 x2 _ x3 x4 (fun _ => rfl)

/-! ## What a grid point writes back -/

variable (m : (ℓ : Loc nD τ sig) → Buf (Elt Ideal) ℓ) (ρ : Dev nD → PrngReg)

theorem hz : (![0, 0] : Fin 2 → Nat) = fun _ => 0 := funext fun a => by fin_cases a <;> rfl

/-- The network of the input as the region finds it and the parameter arrays as launched. -/
def resultV (c : Dev nD) : S16384x256.Idx → EReal :=
  mlp (a := 16384) (k := 512) (h := 128) (n := 256) (V m c main_arg0) (m ((c : Thread nD τ).loc main_arg1))
    (m ((c : Thread nD τ).loc main_arg2)) (m ((c : Thread nD τ).loc main_arg3)) (m ((c : Thread nD τ).loc main_arg4))

/-- The same over the argument arrays as launched. -/
def result (c : Dev nD) : S16384x256.Idx → EReal :=
  mlp (a := 16384) (k := 512) (h := 128) (n := 256) (m ((c : Thread nD τ).loc main_arg0)) (m ((c : Thread nD τ).loc main_arg1))
    (m ((c : Thread nD τ).loc main_arg2)) (m ((c : Thread nD τ).loc main_arg3)) (m ((c : Thread nD τ).loc main_arg4))

theorem resultV_eq (c : Dev nD) : resultV m c = result m c := by
  unfold resultV result
  rw [V_main_arg0 m c]

/-- The index maps over the grid: the input rows move with the output rows, every other block index is zero. -/
theorem idx_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (0 : Fin 2) ≤ 7 ∧ win0_2.index t (1 : Fin 2) = 0 :=
  (by decide +kernel : ∀ t : Fin grid0.N, _)

/-- Every block of rows of the result is some point's. -/
theorem idx_onto : ∀ q0 : Fin 8, ∃ t : Fin cfg0.N, win0_2.index t = ![q0.val, 0] :=
  (by decide +kernel : ∀ q0 : Fin 8, ∃ t : Fin grid0.N, win0_2.index t = ![q0.val, 0])

/-- The packed parameter array is staged whole: its block at every point is the array, which is the four parameter
    arrays written into zeros. -/
theorem iblk1 (c : Dev nD) (t : Fin cfg0.N) :
    iblk m c 1 t = slab (m ((c : Thread nD τ).loc main_arg1)) (m ((c : Thread nD τ).loc main_arg2))
      (m ((c : Thread nD τ).loc main_arg3)) (m ((c : Thread nD τ).loc main_arg4)) := by
  obtain ⟨-, -, e0, e1, -⟩ := idx_facts t
  rw [← V_slab m c]
  unfold iblk
  generalize V (F := Ideal) m c = W
  funext y
  show W main_call0_v14 (((cfg0.win 1).blk t).view.emb y) = W main_call0_v14 y
  refine congrArg _ (funext fun a => Fin.ext ?_)
  match a with
  | ⟨0, _⟩ => show win0_1.index t (0 : Fin 2) * 656 + 1 * (y 0).val = (y 0).val; omega
  | ⟨1, _⟩ => show win0_1.index t (1 : Fin 2) * 256 + 1 * (y 1).val = (y 1).val; omega

/-- A load through a rectangle reads the array at the rectangle's indices. -/
theorem ld_apply (X : S656x256.Idx → EReal) (r : Rect S656x256) (y : r.shape.Idx) :
    View.ld (Val := Elt Ideal) (e' := .f32) X r y = X (r.idx y) := rfl

/-- The body's first load from the packed array, rows 0 … 511 and columns 0 … 127, reads w1. -/
theorem ld_w1 (w1 : S512x128.Idx → EReal) (b1 : S1x128.Idx → EReal) (w2 : S128x256.Idx → EReal) (b2 : S1x256.Idx → EReal) :
    View.ld (Val := Elt Ideal) (e' := .f32) (slab w1 b1 w2 b2) r0_1 = w1 := by
  funext y
  obtain ⟨q, r, rfl⟩ : ∃ (q : Fin 512) (r : Fin 128), y = ix2 q r := ⟨y 0, y 1, eq_ix2 y⟩
  have hq := q.isLt
  have hr := r.isLt
  rw [ld_apply]
  have he : r0_1.idx (ix2 q r) = ix2 (⟨q.val, by omega⟩ : Fin 656) (⟨r.val, by omega⟩ : Fin 256) := by
    funext a; apply Fin.ext
    match a with
    | ⟨0, _⟩ => show 0 + 1 * q.val = q.val; omega
    | ⟨1, _⟩ => show 0 + 1 * r.val = r.val; omega
  rw [he]
  exact slab_w1 w1 b1 w2 b2 q r

/-- Its second load, row 512 and columns 0 … 127, reads the row b1. -/
theorem ld_b1 (w1 : S512x128.Idx → EReal) (b1 : S1x128.Idx → EReal) (w2 : S128x256.Idx → EReal) (b2 : S1x256.Idx → EReal) :
    View.ld (Val := Elt Ideal) (e' := .f32) (slab w1 b1 w2 b2) r0_2 = b1 := by
  funext y
  obtain ⟨q, r, rfl⟩ : ∃ (q : Fin 1) (r : Fin 128), y = ix2 q r := ⟨y 0, y 1, eq_ix2 y⟩
  have hq : q = 0 := Subsingleton.elim _ _
  subst hq
  have hr := r.isLt
  rw [ld_apply]
  have he : r0_2.idx (ix2 (0 : Fin 1) r) = ix2 (⟨512, by omega⟩ : Fin 656) (⟨r.val, by omega⟩ : Fin 256) := by
    funext a; apply Fin.ext
    match a with
    | ⟨0, _⟩ => show 512 + 1 * 0 = 512; omega
    | ⟨1, _⟩ => show 0 + 1 * r.val = r.val; omega
  rw [he]
  exact slab_b1 w1 b1 w2 b2 r

/-- Its third load, rows 520 … 647, reads w2. -/
theorem ld_w2 (w1 : S512x128.Idx → EReal) (b1 : S1x128.Idx → EReal) (w2 : S128x256.Idx → EReal) (b2 : S1x256.Idx → EReal) :
    View.ld (Val := Elt Ideal) (e' := .f32) (slab w1 b1 w2 b2) r0_3 = w2 := by
  funext y
  obtain ⟨q, r, rfl⟩ : ∃ (q : Fin 128) (r : Fin 256), y = ix2 q r := ⟨y 0, y 1, eq_ix2 y⟩
  have hq := q.isLt
  have hr := r.isLt
  rw [ld_apply]
  have he : r0_3.idx (ix2 q r) = ix2 (⟨520 + q.val, by omega⟩ : Fin 656) r := by
    funext a; apply Fin.ext
    match a with
    | ⟨0, _⟩ => show 520 + 1 * q.val = 520 + q.val; omega
    | ⟨1, _⟩ => show 0 + 1 * r.val = r.val; omega
  rw [he]
  exact slab_w2 w1 b1 w2 b2 q r

/-- Its fourth load, row 648, reads the row b2. -/
theorem ld_b2 (w1 : S512x128.Idx → EReal) (b1 : S1x128.Idx → EReal) (w2 : S128x256.Idx → EReal) (b2 : S1x256.Idx → EReal) :
    View.ld (Val := Elt Ideal) (e' := .f32) (slab w1 b1 w2 b2) r0_4 = b2 := by
  funext y
  obtain ⟨q, r, rfl⟩ : ∃ (q : Fin 1) (r : Fin 256), y = ix2 q r := ⟨y 0, y 1, eq_ix2 y⟩
  have hq : q = 0 := Subsingleton.elim _ _
  subst hq
  have hr := r.isLt
  rw [ld_apply]
  have he : r0_4.idx (ix2 (0 : Fin 1) r) = ix2 (⟨648, by omega⟩ : Fin 656) r := by
    funext a; apply Fin.ext
    match a with
    | ⟨0, _⟩ => show 648 + 1 * 0 = 648; omega
    | ⟨1, _⟩ => show 0 + 1 * r.val = r.val; omega
  rw [he]
  exact slab_b2 w1 b1 w2 b2 r

/-- What point `t` writes back is its block of rows of the network of the whole arrays. -/
theorem flushed_eq (c : Dev nD) (t : Fin cfg0.N) :
    (dats m 0 c).flushed 2 t = ((cfg0.win 2).blk t).view.read (Elt Ideal) (resultV m c) := by
  rw [Value.flushed2]
  unfold out0_2
  rw [View.canon_unit_zero hz]
  simp only [View.ld_unit_zero (S := S2048x512) hz]
  rw [iblk1, ld_w1, ld_b1, ld_w2, ld_b2, pay_eq]
  obtain ⟨e0, e1, -, -, e4, e5⟩ := idx_facts t
  funext y
  obtain ⟨p, j, rfl⟩ : ∃ (p : Fin 2048) (j : Fin 256), y = ix2 p j := ⟨y 0, y 1, eq_ix2 y⟩
  have hp := p.isLt
  have hj := j.isLt
  have hemb : ((cfg0.win 2).blk t).view.emb (ix2 p j)
      = ix2 (⟨win0_2.index t (0 : Fin 2) * 2048 + p.val, by omega⟩ : Fin 16384) j := by
    funext a; apply Fin.ext
    match a with
    | ⟨0, _⟩ => show win0_2.index t (0 : Fin 2) * 2048 + 1 * p.val = win0_2.index t (0 : Fin 2) * 2048 + p.val; omega
    | ⟨1, _⟩ => show win0_2.index t (1 : Fin 2) * 256 + 1 * j.val = j.val; omega
  show mlp (a := 2048) (k := 512) (h := 128) (n := 256) (iblk m c 0 t) (m ((c : Thread nD τ).loc main_arg1))
      (m ((c : Thread nD τ).loc main_arg2)) (m ((c : Thread nD τ).loc main_arg3)) (m ((c : Thread nD τ).loc main_arg4)) (ix2 p j)
    = resultV m c (((cfg0.win 2).blk t).view.emb (ix2 p j))
  rw [hemb]
  unfold resultV
  refine mlp_row (V m c main_arg0) (iblk m c 0 t) _ _ _ _ p _ j fun q => ?_
  have hq := q.isLt
  show V m c main_arg0 (((cfg0.win 0).blk t).view.emb (ix2 p q)) = V m c main_arg0 (ix2 _ q)
  refine congrArg _ (funext fun a => Fin.ext ?_)
  match a with
  | ⟨0, _⟩ => show win0_0.index t (0 : Fin 2) * 2048 + 1 * p.val = win0_2.index t (0 : Fin 2) * 2048 + p.val; omega
  | ⟨1, _⟩ => show win0_0.index t (1 : Fin 2) * 512 + 1 * q.val = q.val; omega

/-! ## The blocks cover the result -/

theorem mem_blk (t : Fin cfg0.N) (i : S16384x256.Idx) :
    i ∈ ((cfg0.win 2).blk t).view.set ↔ ∀ a : Fin 2, win0_2.index t a * S2048x256.size a ≤ (i a).val
      ∧ (i a).val < win0_2.index t a * S2048x256.size a + S2048x256.size a := by
  show i ∈ ((View.whole main_v0).slice (win0_2.rect t)).set ↔ _
  rw [View.set_slice_whole, Rect.mem_set_unit]
  exact Iff.rfl

/-- Row r of the result lies in the block of the point whose block index is r / 2048. -/
theorem cover (i : S16384x256.Idx) :
    ∃ t : Fin cfg0.N, (cfg0.win 2).flush t = true ∧ i ∈ ((cfg0.win 2).blk t).view.set := by
  have hi0 : (i 0).val < 16384 := (i 0).isLt
  have hi1 : (i 1).val < 256 := (i 1).isLt
  obtain ⟨t, ht⟩ := idx_onto ⟨(i 0).val / 2048, by omega⟩
  have q0 : win0_2.index t (0 : Fin 2) = (i 0).val / 2048 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 256 ≤ (i 1).val ∧ (i 1).val < win0_2.index t (1 : Fin 2) * 256 + 256; omega

/-- After the run the result array holds the network of the argument arrays. -/
theorem final (c : Dev nD) : (dats m 0 c).arrAt 2 cfg0.N = result m c :=
  ((dats m 0 c).arrAt_eq_of_cover 2 (resultV m c) (fun t _ => flushed_eq m c t) cover).trans (resultV_eq m c)

/-- The run, with the result array named. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.ReferenceIdeal.Net

end
-- ==== Proof.lean ====
/-
  The certificate: the kernel  out = max(x · w1 + b1, 0) · w2 + b2  over f32[16384, 512] inputs, against a reference
  that is itself a kernel computing the same network from one packed parameter array.

  On the extended reals both programs end with the same array, entry by entry
      out (p, j) = ∑ r, max(∑ q, x (p, q) · w1 (q, r) + b1 (0, r), 0) · w2 (r, j) + b2 (0, j).
  * The kernel narrows its matrix-product operands to bf16; a change of float format is the identity on the extended
    reals, so its body is this network of a block of 8192 rows of x, and since entry (p, j) reads only row p of x,
    its two blocks are the two halves of the network of the whole arrays (the kernel's value module).
  * The reference first writes w1, b1, w2 and b2 into an array of zeros at rows 0, 512, 520 and 648, each write a
    scatter of one window that keeps the update; its kernel loads them back from those four regions, where the
    packed array holds them unchanged (the packed-array module), and computes the network on blocks of 2048 rows
    (the reference's value module).
  The sums are taken over the same index sets in the same order on both sides, and no algebraic law that could fail
  at an infinity is used: the precondition (finite inputs) is never opened. The three frames are the generated ones,
  and the idealization rewrote nothing, so `preserves` is trivial.
-/
import proofs.«178347_g2000002520895961_pallasbulk_315_20_alg».proof.Defs
import proofs.«178347_g2000002520895961_pallasbulk_315_20_alg».proof.Proof.Gen.Kernel
import proofs.«178347_g2000002520895961_pallasbulk_315_20_alg».proof.Proof.Gen.Kernel.Frame
import proofs.«178347_g2000002520895961_pallasbulk_315_20_alg».proof.Proof.Gen.KernelIdeal
import proofs.«178347_g2000002520895961_pallasbulk_315_20_alg».proof.Proof.Gen.KernelIdeal.Frame
import proofs.«178347_g2000002520895961_pallasbulk_315_20_alg».proof.Proof.Gen.ReferenceIdeal
import proofs.«178347_g2000002520895961_pallasbulk_315_20_alg».proof.Proof.Gen.ReferenceIdeal.Frame
import proofs.«178347_g2000002520895961_pallasbulk_315_20_alg».proof.Proof.Gen.Pre_finite_inputs
import proofs.«178347_g2000002520895961_pallasbulk_315_20_alg».proof.Proof.KernelValue
import proofs.«178347_g2000002520895961_pallasbulk_315_20_alg».proof.Proof.RefValue

noncomputable section

namespace Cert.Proof

open Idealize.ShloMosaic Idealize.ShloMosaic.TcCoe Idealize.SL.Sem

/-- From memories agreeing on the five arguments, both idealized programs end with the network of those arguments
    in their result arrays. -/
theorem algebraic : Cert.algebraic_KernelIdeal_ReferenceIdeal := by
  intro m ρ m' ρ' _ hagree
  refine ⟨fun c => Cert.KernelIdeal.Net.result m c, Cert.KernelIdeal.Net.run m ρ, ?_⟩
  refine (θ_run Cert.ReferenceIdeal.defs _ _).mono (fun r h c => ⟨(h c).1.trans ?_, (h c).2⟩)
    (Cert.ReferenceIdeal.Net.run m' ρ')
  unfold Cert.ReferenceIdeal.Net.result Cert.KernelIdeal.Net.result
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => Cert.ReferenceIdeal.Gen.frame m ρ,
    trivial,
    algebraic⟩

end Cert.Proof

end
